-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x33181 : Shape := ⟨2, ![2048, 33181]⟩
abbrev S33181x2048 : Shape := ⟨2, ![33181, 2048]⟩
abbrev S2048 : Shape := ⟨1, ![2048]⟩
abbrev S_ : Shape := ⟨0, ![]⟩

class Facts : Prop where
  bcast_S_S2048x33181 : S_.BroadcastsInDim S2048x33181 (![] : Fin 0 → Fin S2048x33181.rank)
  reducesTo_S2048x33181_S_d0_1 : S2048x33181.ReducesTo [0, 1] S_
  h_S_ : 0 < S_.numel
  bcast_S_S33181x2048 : S_.BroadcastsInDim S33181x2048 (![] : Fin 0 → Fin S33181x2048.rank)
  reducesTo_S33181x2048_S_d0_1 : S33181x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S33181x2048 1) : IVec S_ 1 :=
  let main_c_5 : IVec S_ 1 := constantI S_ 1 1#1
  let main_v17 : IVec S_ 1 := (fun x v => Host.reduce IntOp.andi x v reducesTo_S33181x2048_S_d0_1 h_S_) main_v16 main_c_5
  let main_v18 : IVec S_ 1 := andi main_v13 main_v17
  main_v18

def fn {F : FTy → Type} [FloatOps F] (main_arg0 : FVec F S2048x33181 .f32) (main_arg1 : FVec F S33181x2048 .f32) (main_arg2 : FVec F S2048 .f32) (main_arg3 : FVec F S33181x2048 .f32) : IVec S_ 1 :=
  let main_v0 : FVec F S2048x33181 .f32 := Host.absf main_arg0
  let main_cst : FVec F S_ .f32 := constant S_ .f32 0x7F800000#32
  let main_v1 : FVec F S2048x33181 .f32 := broadcastInDim S2048x33181 ![] bcast_S_S2048x33181 main_cst
  let main_v2 : IVec S2048x33181 1 := cmpf .olt main_v0 main_v1
  let main_c : IVec S_ 1 := constantI S_ 1 1#1
  let main_v3 : IVec S_ 1 := (fun x v => Host.reduce IntOp.andi x v reducesTo_S2048x33181_S_d0_1 h_S_) main_v2 main_c
  let main_v4 : FVec F S33181x2048 .f32 := Host.absf main_arg1
  let main_cst_0 : FVec F S_ .f32 := constant S_ .f32 0x7F800000#32
  let main_v5 : FVec F S33181x2048 .f32 := broadcastInDim S33181x2048 ![] bcast_S_S33181x2048 main_cst_0
  let main_v6 : IVec S33181x2048 1 := cmpf .olt main_v4 main_v5
  let main_c_1 : IVec S_ 1 := constantI S_ 1 1#1
  let main_v7 : IVec S_ 1 := (fun x v => Host.reduce IntOp.andi x v reducesTo_S33181x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S33181x2048 .f32 := Host.absf main_arg3
  let main_cst_4 : FVec F S_ .f32 := constant S_ .f32 0x7F800000#32
  let main_v15 : FVec F S33181x2048 .f32 := broadcastInDim S33181x2048 ![] bcast_S_S33181x2048 main_cst_4
  let main_v16 : IVec S33181x2048 1 := cmpf .olt main_v14 main_v15
  fn_part1 (F := F) main_v13 main_v16
-- ==== Kernel.lean ====
abbrev S2048x33181 : Shape := ⟨2, ![2048, 33181]⟩
abbrev S33181x2048 : Shape := ⟨2, ![33181, 2048]⟩
abbrev S2048 : Shape := ⟨1, ![2048]⟩
abbrev S1x2048 : Shape := ⟨2, ![1, 2048]⟩
abbrev S_ : Shape := ⟨0, ![]⟩
abbrev S2048x33280 : Shape := ⟨2, ![2048, 33280]⟩
abbrev S33280x2048 : Shape := ⟨2, ![33280, 2048]⟩
abbrev S2048x2048 : Shape := ⟨2, ![2048, 2048]⟩
abbrev S2048x256 : Shape := ⟨2, ![2048, 256]⟩
abbrev S256x1024 : Shape := ⟨2, ![256, 1024]⟩
abbrev S1x1024 : Shape := ⟨2, ![1, 1024]⟩
abbrev S2048x1024 : Shape := ⟨2, ![2048, 1024]⟩

abbrev nBuf : Space → Nat
  | .hbm => 15
  | .vmem => 11
  | .smem => 0
  | _ => 0

abbrev bufTy : (tb : Table) → Fin (tcTables nBuf tb) → BufTy
  | .hbm, ⟨0, _⟩ => ⟨S2048x33181, .f32⟩
  | .hbm, ⟨1, _⟩ => ⟨S33181x2048, .f32⟩
  | .hbm, ⟨2, _⟩ => ⟨S2048, .f32⟩
  | .hbm, ⟨3, _⟩ => ⟨S33181x2048, .f32⟩
  | .hbm, ⟨4, _⟩ => ⟨S1x2048, .f32⟩
  | .hbm, ⟨5, _⟩ => ⟨S_, .i32⟩
  | .hbm, ⟨6, _⟩ => ⟨S_, .f32⟩
  | .hbm, ⟨7, _⟩ => ⟨S2048x33280, .f32⟩
  | .hbm, ⟨8, _⟩ => ⟨S_, .i32⟩
  | .hbm, ⟨9, _⟩ => ⟨S_, .f32⟩
  | .hbm, ⟨10, _⟩ => ⟨S33280x2048, .f32⟩
  | .hbm, ⟨11, _⟩ => ⟨S_, .i32⟩
  | .hbm, ⟨12, _⟩ => ⟨S_, .f32⟩
  | .hbm, ⟨13, _⟩ => ⟨S33280x2048, .f32⟩
  | .hbm, ⟨14, _⟩ => ⟨S2048x2048, .f32⟩
  | .local _ .vmem, ⟨0, _⟩ => ⟨S2048x256, .f32⟩
  | .local _ .vmem, ⟨1, _⟩ => ⟨S2048x256, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S2048x1024, .f32⟩
  | .local _ .vmem, ⟨9, _⟩ => ⟨S2048x1024, .f32⟩
  | .local _ .vmem, ⟨10, _⟩ => ⟨S2048x1024, .f32⟩
  | _, _ => ⟨S2048x33181, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_c : Ref sig .tc := ⟨.hbm, 5, rfl⟩
abbrev main_call0_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_call1_v0 : Ref sig .tc := ⟨.hbm, 9, rfl⟩
abbrev main_call0_v2 : Ref sig .tc := ⟨.hbm, 10, rfl⟩
abbrev main_call0_c_1 : Ref sig .tc := ⟨.hbm, 11, rfl⟩
abbrev main_call0_call2_v0 : Ref sig .tc := ⟨.hbm, 12, rfl⟩
abbrev main_call0_v3 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![1, 2, 130], ![false, false, false]⟩

def k0_cond2 (i : grid0.Coords) : BitVec 1 :=
  let arg2 : BitVec 32 := BitVec.ofNat 32 (i 2).val
  let c129_i32 : BitVec 32 := 129#32
  let v18 : BitVec 1 := Scalar.cmpi .eq arg2 c129_i32
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S2048_S1x2048 : S2048.ShapeCasts S1x2048
  pads_S2048x33181_S2048x33280_000_0990 : S2048x33181.Pads (![0, 0] : Fin 2 → Nat) ![0, 99] ![0, 0] S2048x33280
  h_S_ : 0 < S_.numel
  pads_S33181x2048_S33280x2048_0990_000 : S33181x2048.Pads (![0, 0] : Fin 2 → Nat) ![99, 0] ![0, 0] S33280x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x256_S256x1024_S2048x1024_1_0_0_1_n_n_wf : DotDims.WF S2048x256 S256x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S2048x33280.size a
  hwx0_0 : ∀ i : grid0.Coords, EltTy.bits .f32 = 32 ∨ (Rect.block (s := S2048x33280) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S33280x2048.size a
  hwx0_1 : ∀ i : grid0.Coords, EltTy.bits .f32 = 32 ∨ (Rect.block (s := S33280x2048) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S33280x2048.size a
  hwx0_2 : ∀ i : grid0.Coords, EltTy.bits .f32 = 32 ∨ (Rect.block (s := S33280x2048) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x2048.size a
  hwx0_3 : ∀ i : grid0.Coords, EltTy.bits .f32 = 32 ∨ (Rect.block (s := S1x2048) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S2048x2048.size a
  hwx0_4 : ∀ i : grid0.Coords, EltTy.bits .f32 = 32 ∨ (Rect.block (s := S2048x2048) S2048x1024.size (cc0_transform_4 i) (hinb0_4 i)).WholeWords (EltTy.packing .f32)

variable [Facts₀]

def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf

abbrev win0_0 : Pipeline.Window sig grid0 :=
  Pipeline.Window.ofSpec (Memref.whole main_call0_v1) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v2) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v3) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2048x33181 : Shape := ⟨2, ![2048, 33181]⟩
abbrev S33181x2048 : Shape := ⟨2, ![33181, 2048]⟩
abbrev S2048 : Shape := ⟨1, ![2048]⟩
abbrev S2048x2048 : Shape := ⟨2, ![2048, 2048]⟩
abbrev S1x2048 : Shape := ⟨2, ![1, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2048x33181, .f32⟩
  | .hbm, ⟨1, _⟩ => ⟨S33181x2048, .f32⟩
  | .hbm, ⟨2, _⟩ => ⟨S2048, .f32⟩
  | .hbm, ⟨3, _⟩ => ⟨S33181x2048, .f32⟩
  | .hbm, ⟨4, _⟩ => ⟨S33181x2048, .f32⟩
  | .hbm, ⟨5, _⟩ => ⟨S2048x2048, .f32⟩
  | .hbm, ⟨6, _⟩ => ⟨S1x2048, .f32⟩
  | .hbm, ⟨7, _⟩ => ⟨S2048x2048, .f32⟩
  | .hbm, ⟨8, _⟩ => ⟨S2048x2048, .f32⟩
  | _, _ => ⟨S2048x33181, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  dot_S2048x33181_S33181x2048_S2048x2048_1_0_0_1_n_n_wf : DotDims.WF S2048x33181 S33181x2048 S2048x2048 [1] [0] [0] [1] [] []

variable [Facts₀]

def dot_S2048x33181_S33181x2048_S2048x2048_1_0_0_1_n_n : DotDims S2048x33181 S33181x2048 S2048x2048 where
  lhsContracting := [1]
  rhsContracting := [0]
  lhsNonContracting := [0]
  rhsNonContracting := [1]
  lhsBatch := []
  rhsBatch := []
  wf := dot_S2048x33181_S33181x2048_S2048x2048_1_0_0_1_n_n_wf

class Facts : Prop extends Facts₀ where

variable [Facts]
-- ==== Proof.MaskedProductSpec.lean ====
/-
  The value both programs compute, as one function of the four argument arrays, index by index:

    out (b, g) = (sum over the 33181 probes j of x (b, j) * (w (j, g) * mask (j, g))) + bias g,

  and the two facts about finite sums by which a sum taken block by block over a zero-padded
  range is the plain sum: a sum over S consecutive blocks of B terms is the sum over the first
  B * S naturals, and a sequence that vanishes from n on has the same sum over n + p terms as
  over n. Both hold in any commutative additive monoid, so on the extended reals they need no
  finiteness of the terms.
-/
import Idealize.ShloMosaic.PureOps.Ideal
import Idealize.ShloMosaic.Lib.ValueIdx

noncomputable section

open scoped BigOperators

namespace MaskedProduct

open Idealize.ShloMosaic Idealize.ShloMosaic.ValueIdx

/-- The masked product plus the bias: entry (b, g) sums, over every probe j, the sample's reading
    x (b, j) times the masked weight w (j, g) * mask (j, g), and adds gene g's bias. -/
def out (x : (⟨2, ![2048, 33181]⟩ : Shape).Idx → EReal) (w mask : (⟨2, ![33181, 2048]⟩ : Shape).Idx → EReal)
    (bias : (⟨1, ![2048]⟩ : Shape).Idx → EReal) : (⟨2, ![2048, 2048]⟩ : Shape).Idx → EReal :=
  fun i => (∑ j : Fin 33181, x (ix2 (i 0) j) * (w (ix2 j (i 1)) * mask (ix2 j (i 1)))) + bias (ix1 (i 1))

/-- A sum taken block by block, S blocks of B consecutive terms, is the sum of the first B * S terms. -/
theorem sum_blocks {β : Type*} [AddCommMonoid β] (f : ℕ → β) (B : ℕ) :
    ∀ S : ℕ, ∑ s ∈ Finset.range S, ∑ c : Fin B, f (B * s + c.val) = ∑ n ∈ Finset.range (B * S), f n
  | 0 => by simp
  | S + 1 => by
    rw [Finset.sum_range_succ, sum_blocks f B S, Nat.mul_succ, Finset.sum_range_add,
      Fin.sum_univ_eq_sum_range (fun c => f (B * S + c)) B]

/-- A sequence that is zero from n on has the same sum over its first n + p terms as over its first n. -/
theorem sum_zero_tail {β : Type*} [AddCommMonoid β] (f : ℕ → β) (n p : ℕ) (hz : ∀ k, n ≤ k → f k = 0) :
    ∑ k ∈ Finset.range (n + p), f k = ∑ j : Fin n, f j.val := by
  rw [Finset.sum_range_add, Finset.sum_eq_zero (fun k _ => hz _ (Nat.le_add_right _ _)), add_zero,
    Fin.sum_univ_eq_sum_range]

/-- Hence 130 blocks of 256 terms of a sequence that is zero from 33181 on sum to its first 33181 terms
    (130 * 256 = 33280 = 33181 + 99). -/
theorem sum_blocks_padded {β : Type*} [AddCommMonoid β] (f : ℕ → β) (hz : ∀ k, 33181 ≤ k → f k = 0) :
    ∑ s ∈ Finset.range 130, ∑ c : Fin 256, f (256 * s + c.val) = ∑ j : Fin 33181, f j.val := by
  rw [sum_blocks f 256 130, show 256 * 130 = 33181 + 99 from rfl, sum_zero_tail f 33181 99 hz]

/-! ### Reads continued by zeros, and the blocked sum -/

/-- Row b of x as a sequence over every natural: the reading at probe k, and zero past the last probe. -/
def xext (x : (⟨2, ![2048, 33181]⟩ : Shape).Idx → EReal) (b : Fin 2048) (k : ℕ) : EReal :=
  if h : k < 33181 then x (ix2 b ⟨k, h⟩) else 0

/-- Column g of a [33181, 2048] array as a sequence over every natural, zero past the last probe. -/
def wext (w : (⟨2, ![33181, 2048]⟩ : Shape).Idx → EReal) (g : Fin 2048) (k : ℕ) : EReal :=
  if h : k < 33181 then w (ix2 ⟨k, h⟩ g) else 0

/-- Probe k's term of entry (b, g): the reading times the masked weight; zero past the last probe, where
    all three factors are zero. -/
def term (x : (⟨2, ![2048, 33181]⟩ : Shape).Idx → EReal) (w mask : (⟨2, ![33181, 2048]⟩ : Shape).Idx → EReal)
    (b g : Fin 2048) (k : ℕ) : EReal :=
  xext x b k * (wext w g k * wext mask g k)

theorem term_of_ge (x : (⟨2, ![2048, 33181]⟩ : Shape).Idx → EReal) (w mask : (⟨2, ![33181, 2048]⟩ : Shape).Idx → EReal)
    (b g : Fin 2048) (k : ℕ) (hk : 33181 ≤ k) : term x w mask b g k = 0 := by
  unfold term xext
  rw [dif_neg (Nat.not_lt.mpr hk), zero_mul]

theorem term_of_lt (x : (⟨2, ![2048, 33181]⟩ : Shape).Idx → EReal) (w mask : (⟨2, ![33181, 2048]⟩ : Shape).Idx → EReal)
    (b g : Fin 2048) (j : Fin 33181) :
    term x w mask b g j.val = x (ix2 b j) * (w (ix2 j g) * mask (ix2 j g)) := by
  unfold term xext wext
  rw [dif_pos j.isLt, dif_pos j.isLt, dif_pos j.isLt]

/-- THE LAW that joins the two programs: zero, plus the terms summed K-block by K-block over the zero-padded
    range (130 blocks of 256), plus the bias, is the masked product plus the bias. Only the regrouping of a finite
    sum and 0 + a = a are used, so no term need be finite. -/
theorem blocked_eq_out (x : (⟨2, ![2048, 33181]⟩ : Shape).Idx → EReal) (w mask : (⟨2, ![33181, 2048]⟩ : Shape).Idx → EReal)
    (bias : (⟨1, ![2048]⟩ : Shape).Idx → EReal) (b g : Fin 2048) :
    (0 + ∑ s ∈ Finset.range 130, ∑ c : Fin 256, term x w mask b g (256 * s + c.val)) + bias (ix1 g)
      = out x w mask bias (ix2 b g) := by
  rw [zero_add, sum_blocks_padded (term x w mask b g) (term_of_ge x w mask b g)]
  unfold out
  exact congrArg (· + bias (ix1 g)) (Finset.sum_congr rfl fun j _ => term_of_lt x w mask b g j)

end MaskedProduct

end
-- ==== Proof.ReferenceValue.lean ====
/-
  The reference's result, read index by index: entry (b, g) of x @ (w * mask) + bias is the sum over
  the 33181 probes j of x (b, j) * (w (j, g) * mask (j, g)), plus bias g. The dot_general contracts
  x's second axis against the masked weight's first, and the two broadcasts carry bias g to every
  row b; so the reference's last stage is the specification's function of the four arguments.
-/
import proofs.«113043_j24086176596651_2_alg».proof.Proof.Gen.ReferenceIdeal.Read
import proofs.«113043_j24086176596651_2_alg».proof.Proof.MaskedProductSpec

noncomputable section

open scoped BigOperators

namespace Cert.ReferenceIdeal.RefValue

open Cert.ReferenceIdeal Cert.ReferenceIdeal.Read Idealize.ShloMosaic Idealize.ShloMosaic.ValueIdx

/-- The product's left factor at output (b, g) and probe k is x (b, k). -/
theorem lidx_eq (i : S2048x2048.Idx) (k : Fin 33181) : lidx_main_v1 i k = ix2 (i 0) k :=
  funext fun a => by match a with | ⟨0, _⟩ => rfl | ⟨1, _⟩ => rfl

/-- Its right factor is the masked weight at (k, g). -/
theorem ridx_eq (i : S2048x2048.Idx) (k : Fin 33181) : ridx_main_v1 i k = ix2 k (i 1) :=
  funext fun a => by match a with | ⟨0, _⟩ => rfl | ⟨1, _⟩ => rfl

/-- The bias broadcast to [1, 2048] and then down the 2048 rows reads bias g at (b, g). -/
theorem bidx_eq (i : S2048x2048.Idx) : idx_main_v2 (idx_main_v3 i) = ix1 (i 1) :=
  funext fun a => by match a with | ⟨0, _⟩ => rfl

/-- The reference's last stage is the masked product plus the bias. -/
theorem stage_eq_out (x0 : (⟨S2048x33181, .f32⟩ : BufTy).Contents (Elt Ideal)) (x1 : (⟨S33181x2048, .f32⟩ : BufTy).Contents (Elt Ideal))
    (x2 : (⟨S2048, .f32⟩ : BufTy).Contents (Elt Ideal)) (x3 : (⟨S33181x2048, .f32⟩ : BufTy).Contents (Elt Ideal)) :
    val_main_v4 (F := Ideal) x0 x1 x2 x3 = MaskedProduct.out x0 x1 x3 x2 := by
  funext i
  rw [val_main_v4_apply, val_main_v1_apply, val_main_v3_apply, val_main_v2_apply, bidx_eq]
  simp only [val_main_v0_apply, lidx_eq, ridx_eq]
  rfl

end Cert.ReferenceIdeal.RefValue

end
-- ==== Proof.BodyValues.lean ====
/-
  The three values the kernel body stores, read at an entry (p, q) of the [2048, 1024] tile, on the
  extended reals, where a change of float format is the identity:

    the reset          stores 0;
    the accumulation   stores acc (p, q) + the sum over the 256 rows c of the K-block of
                       x (p, c) * (w (c, q) * mask (c, q)) -- the matrix unit's product of the x block
                       with the masked weight block, into a zero accumulator, is that plain sum;
    the epilogue       stores acc (p, q) + bias (0, q), the [1, 1024] bias row carried down the rows.
-/
import proofs.«113043_j24086176596651_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.BodyValues

open Cert.KernelIdeal Cert.KernelIdeal.Gen Idealize.ShloMosaic Idealize.ShloMosaic.ValueIdx

/-- The reset value is zero at every entry. -/
theorem reset_apply (j : S2048x1024.Idx) : k0_pay1 (F := Ideal) j = 0 := by
  unfold k0_pay1
  rw [shapeCast_self]
  exact Ideal.ofBits_zero_f32

/-! ### The block product at an entry -/

theorem lhs_row (i : S2048x1024.Idx) (k : dot_S2048x256_S256x1024_S2048x1024_1_0_0_1_n_n.contr.Idx) : (dot_S2048x256_S256x1024_S2048x1024_1_0_0_1_n_n.lhsIdx i k 0).val = (i 0).val := by
  unfold DotDims.lhsIdx
  rw [dif_neg (show ¬(0 : Fin S2048x256.rank) ∈ dot_S2048x256_S256x1024_S2048x1024_1_0_0_1_n_n.lhsBatch by decide), dif_pos (show (0 : Fin S2048x256.rank) ∈ dot_S2048x256_S256x1024_S2048x1024_1_0_0_1_n_n.lhsNonContracting by decide)]
  rfl

theorem lhs_col (i : S2048x1024.Idx) (k : dot_S2048x256_S256x1024_S2048x1024_1_0_0_1_n_n.contr.Idx) : (dot_S2048x256_S256x1024_S2048x1024_1_0_0_1_n_n.lhsIdx i k 1).val = (k ⟨0, by decide⟩).val :=
  dot_S2048x256_S256x1024_S2048x1024_1_0_0_1_n_n.lhsIdx_val_of_single rfl i k

theorem rhs_row (i : S2048x1024.Idx) (k : dot_S2048x256_S256x1024_S2048x1024_1_0_0_1_n_n.contr.Idx) : (dot_S2048x256_S256x1024_S2048x1024_1_0_0_1_n_n.rhsIdx i k 0).val = (k ⟨0, by decide⟩).val :=
  dot_S2048x256_S256x1024_S2048x1024_1_0_0_1_n_n.rhsIdx_val_of_single rfl i k

theorem rhs_col (i : S2048x1024.Idx) (k : dot_S2048x256_S256x1024_S2048x1024_1_0_0_1_n_n.contr.Idx) : (dot_S2048x256_S256x1024_S2048x1024_1_0_0_1_n_n.rhsIdx i k 1).val = (i 1).val := by
  unfold DotDims.rhsIdx
  rw [dif_neg (show ¬(1 : Fin S256x1024.rank) ∈ dot_S2048x256_S256x1024_S2048x1024_1_0_0_1_n_n.rhsBatch by decide), dif_pos (show (1 : Fin S256x1024.rank) ∈ dot_S2048x256_S256x1024_S2048x1024_1_0_0_1_n_n.rhsNonContracting by decide)]
  rfl

/-- The product of a [2048, 256] block with a [256, 1024] block into the zero accumulator, at entry (p, q), is the
    sum over the 256 contracted positions c of l (p, c) * r (c, q). -/
theorem blockProduct_apply (l : FVec Ideal S2048x256 .bf16) (r : FVec Ideal S256x1024 .bf16) (p : Fin 2048) (q : Fin 1024) :
    matmul dot_S2048x256_S256x1024_S2048x1024_1_0_0_1_n_n none l r (constant (F := Ideal) S2048x1024 .f32 0x00000000#32) (ix2 p q)
      = ∑ c : Fin 256, l (ix2 p c) * r (ix2 c q) := by
  simp only [matmul]
  rw [Ideal.matmul_constant_zero_apply, ← Equiv.sum_comp (contrEquiv1 dot_S2048x256_S256x1024_S2048x1024_1_0_0_1_n_n 256 rfl rfl).symm]
  refine Finset.sum_congr rfl fun c _ => ?_
  have hc := contrEquiv1_symm_val dot_S2048x256_S256x1024_S2048x1024_1_0_0_1_n_n 256 rfl rfl c
  have el : dot_S2048x256_S256x1024_S2048x1024_1_0_0_1_n_n.lhsIdx (ix2 p q) ((contrEquiv1 dot_S2048x256_S256x1024_S2048x1024_1_0_0_1_n_n 256 rfl rfl).symm c) = ix2 p c := funext fun a => Fin.ext (by
    match a with
    | ⟨0, _⟩ => exact lhs_row _ _
    | ⟨1, _⟩ => exact (lhs_col _ _).trans hc)
  have er : dot_S2048x256_S256x1024_S2048x1024_1_0_0_1_n_n.rhsIdx (ix2 p q) ((contrEquiv1 dot_S2048x256_S256x1024_S2048x1024_1_0_0_1_n_n 256 rfl rfl).symm c) = ix2 c q := funext fun a => Fin.ext (by
    match a with
    | ⟨0, _⟩ => exact (rhs_row _ _).trans hc
    | ⟨1, _⟩ => exact rhs_col _ _)
  rw [el, er]

/-! ### The stored values at an entry -/

/-- The accumulation step at entry (p, q): what the scratch held there, plus the K-block's share of the product. -/
theorem accumulate_apply (v3 : Vec Ideal S2048x256 .f32) (v6 v8 : Vec Ideal S256x1024 .f32) (v12 : Vec Ideal S2048x1024 .f32)
    (p : Fin 2048) (q : Fin 1024) :
    k0_pay2 (F := Ideal) v3 v6 v8 v12 (ix2 p q)
      = v12 (ix2 p q) + ∑ c : Fin 256, v3 (ix2 p c) * (v6 (ix2 c q) * v8 (ix2 c q)) := by
  unfold k0_pay2
  simp only [shapeCast_self]
  rw [addf_apply, blockProduct_apply]
  rfl

/-- The epilogue at entry (p, q): the accumulated value plus the bias row's entry q. -/
theorem addBias_apply (v21 : Vec Ideal S2048x1024 .f32) (v22 : Vec Ideal S1x1024 .f32) (p : Fin 2048) (q : Fin 1024) :
    k0_pay3 (F := Ideal) v21 v22 (ix2 p q) = v21 (ix2 p q) + v22 (ix2 (0 : Fin 1) q) := by
  unfold k0_pay3
  simp only [shapeCast_self]
  rw [addf_apply]
  refine congrArg (v21 (ix2 p q) + ·) ?_
  exact broadcastTo_apply v22 broadcasts_S1x1024_S2048x1024 (ix2 p q) (ix2 (0 : Fin 1) q) (fun a => by
    match a with
    | ⟨0, _⟩ => show (0 : Nat) = if (1 : Nat) = 1 then 0 else _; rw [if_pos rfl]
    | ⟨1, _⟩ => show q.val = if (1024 : Nat) = 1 then 0 else q.val; rw [if_neg (by decide)])

end Cert.KernelIdeal.BodyValues

end
-- ==== Proof.CasePieces.lean ====
/-
  What each of the body's three control cases leaves behind, as a value. Every store of the body
  writes the whole [2048, 1024] tile, so what a buffer holds afterwards is its last store's value:

    at the first K-block (the reset runs)   the scratch holds the accumulation step over the reset value;
    at a middle K-block                     the scratch holds the accumulation step over what it held;
    at the last K-block                     the scratch likewise, and the output tile holds the epilogue
                                            of that accumulated value and the bias row.

  A load of the scratch that follows a store into it within one run of the body reads that store back.
-/
import proofs.«113043_j24086176596651_2_alg».proof.Proof.Gen.KernelIdeal.Frame
import Idealize.ShloMosaic.Lib.Pipeline.Value
import Idealize.ShloMosaic.Lib.Tactic

set_option maxRecDepth 16384

noncomputable section

namespace Cert.KernelIdeal.CasePieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- First K-block: the scratch ends at the accumulation step over the reset value. -/
theorem scratch_first (c : Dev nD) (i : grid0.Coords) (arg3 : Memref sig .tc .vmem S2048x256 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : cond0_0 i) (hc1 : ¬cond0_1 i) (x0 : Vec F S2048x256 .f32) (x1 : Vec F S256x1024 .f32) (x2 : Vec F S256x1024 .f32) (x3 : Vec F S1x1024 .f32) :
    sout0_A_0 c i arg3 harg3 arg4 harg4 arg5 harg5 arg6 harg6 arg7 harg7 arg8 harg8 hc0 hc1 x0 x1 x2 x3 = k0_pay2 x0 x1 x2 (k0_pay1 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S2048x1024) hz]
  simp only [View.readAt_eq_ld, harg3.read_unread, harg4.read_unread, harg5.read_unread, harg6.read_unread, harg8.read_unread, View.ld_unit_zero (S := S2048x256) hz, View.ld_unit_zero (S := S256x1024) hz, View.ld_unit_zero (S := S2048x1024) hz, View.ld_unit_zero (S := S1x1024) hz]
  rw [View.readCov_unit_zero (S := S2048x1024) _ hz]

/-- Middle K-block: the scratch ends at the accumulation step over what the point before left in it. -/
theorem scratch_middle (c : Dev nD) (i : grid0.Coords) (arg3 : Memref sig .tc .vmem S2048x256 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : ¬cond0_0 i) (hc1 : ¬cond0_1 i) (x0 : Vec F S2048x256 .f32) (x1 : Vec F S256x1024 .f32) (x2 : Vec F S256x1024 .f32) (x3 : Vec F S1x1024 .f32) (xs0 : Vec F S2048x1024 .f32) :
    sout0_B_0 c i arg3 harg3 arg4 harg4 arg5 harg5 arg6 harg6 arg7 harg7 arg8 harg8 hc0 hc1 x0 x1 x2 x3 xs0 = k0_pay2 x0 x1 x2 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  rw [View.canon_unit_zero hz]
  simp only [View.readAt_eq_ld, harg3.read_unread, harg4.read_unread, harg5.read_unread, harg6.read_unread, harg8.read_unread, View.ld_unit_zero (S := S2048x256) hz, View.ld_unit_zero (S := S256x1024) hz, View.ld_unit_zero (S := S2048x1024) hz, View.ld_unit_zero (S := S1x1024) hz]

/-- Last K-block: the scratch ends at the accumulation step over what the point before left in it, -/
theorem scratch_last (c : Dev nD) (i : grid0.Coords) (arg3 : Memref sig .tc .vmem S2048x256 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : ¬cond0_0 i) (hc1 : cond0_1 i) (x0 : Vec F S2048x256 .f32) (x1 : Vec F S256x1024 .f32) (x2 : Vec F S256x1024 .f32) (x3 : Vec F S1x1024 .f32) (xs0 : Vec F S2048x1024 .f32) :
    sout0_C_0 c i arg3 harg3 arg4 harg4 arg5 harg5 arg6 harg6 arg7 harg7 arg8 harg8 hc0 hc1 x0 x1 x2 x3 xs0 = k0_pay2 x0 x1 x2 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg5.read_unread, harg6.read_unread, harg8.read_unread, View.ld_unit_zero (S := S2048x256) hz, View.ld_unit_zero (S := S256x1024) hz, View.ld_unit_zero (S := S2048x1024) hz, View.ld_unit_zero (S := S1x1024) hz]

/-- and the output tile at the epilogue of that value and the bias row. -/
theorem out_last (c : Dev nD) (i : grid0.Coords) (arg3 : Memref sig .tc .vmem S2048x256 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : ¬cond0_0 i) (hc1 : cond0_1 i) (x0 : Vec F S2048x256 .f32) (x1 : Vec F S256x1024 .f32) (x2 : Vec F S256x1024 .f32) (x3 : Vec F S1x1024 .f32) (xs0 : Vec F S2048x1024 .f32) :
    out0_C_4 c i arg3 harg3 arg4 harg4 arg5 harg5 arg6 harg6 arg7 harg7 arg8 harg8 hc0 hc1 x0 x1 x2 x3 xs0 = k0_pay3 (k0_pay2 x0 x1 x2 xs0) x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz]
  simp only [View.readAt_eq_ld, harg3.read_unread, harg4.read_unread, harg5.read_unread, harg6.read_unread, harg8.read_unread, View.ld_unit_zero (S := S2048x256) hz, View.ld_unit_zero (S := S256x1024) hz, View.ld_unit_zero (S := S2048x1024) hz, View.ld_unit_zero (S := S1x1024) hz]
  rw [View.readCov_unit_zero (S := S2048x1024) _ hz]

end Cert.KernelIdeal.CasePieces

end
-- ==== Proof.PaddedBlocks.lean ====
/-
  The arrays the kernel's windows read, and the windows' blocks.

  Before the kernel runs the host zero-pads x along its probe axis and w and mask along theirs, from
  33181 to 33280 = 130 * 256, and reshapes the bias to one row. Read at an index, a padded array is
  the argument where the probe position is below 33181 and zero from there on: the argument's row
  or column continued by zeros. At grid point t = 130 * n + k (column tile n, K-block k) the x window's
  block holds probes 256 k .. 256 k + 255 of every row; the w and mask windows' blocks hold those
  probes of the genes 1024 n .. 1024 n + 1023; the bias window's block holds those genes' biases.
-/
import proofs.«113043_j24086176596651_2_alg».proof.Proof.Gen.KernelIdeal.Frame
import proofs.«113043_j24086176596651_2_alg».proof.Proof.MaskedProductSpec
import Idealize.ShloMosaic.Lib.KernelVsHost
import Idealize.ShloMosaic.Lib.Pipeline.Value
import Idealize.ShloMosaic.Lib.StableHlo.Run
import Idealize.ShloMosaic.Lib.ValueIdx

set_option maxRecDepth 16384

noncomputable section

namespace Cert.KernelIdeal.PaddedBlocks

open Cert.KernelIdeal Cert.KernelIdeal.Gen Idealize.ShloMosaic Idealize.ShloMosaic.TcCoe Idealize.SL.Sem
open Idealize.ShloMosaic.ValueIdx Idealize.ShloMosaic.StableHlo
open MaskedProduct (xext wext)

/-! ### The host's arrays at an index -/

/-- The padding value, the integer zero converted, is the real zero. -/
theorem padValue_eq (j : S_.Idx) : ((sitofp (F := Ideal) .f32 (constantI S_ 32 0#32)) : FVec Ideal S_ .f32) j = 0 := by
  show ((((0#32 : BitVec 32).toInt : ℤ) : ℝ) : EReal) = 0
  simp

/-- x padded along its probe axis, at (b, n): row b of x continued by zeros, at n. -/
theorem padProbesOfX_apply (x : FVec Ideal S2048x33181 .f32) (b : Fin 2048) (n : Fin 33280) :
    pad S2048x33280 ![0, 0] ![0, 99] ![0, 0] x (sitofp (F := Ideal) .f32 (constantI S_ 32 0#32)) pads_S2048x33181_S2048x33280_000_0990 h_S_ (ix2 b n)
      = xext x b n.val := by
  unfold MaskedProduct.xext
  split
  · rename_i h
    exact pad_apply_of_inside _ _ _ x _ pads_S2048x33181_S2048x33280_000_0990 h_S_ (ix2 b n) (ix2 b ⟨n.val, h⟩) (fun a => by
      match a with
      | ⟨0, _⟩ => show b.val = 0 + b.val * (0 + 1); omega
      | ⟨1, _⟩ => show n.val = 0 + n.val * (0 + 1); omega)
  · rename_i h
    rw [pad_apply_of_not_inside _ _ _ x _ pads_S2048x33181_S2048x33280_000_0990 h_S_ (ix2 b n) (1 : Fin 2) (by
      show ¬(0 ≤ n.val ∧ (n.val - 0) % (0 + 1) = 0 ∧ (n.val - 0) / (0 + 1) < 33181); omega)]
    exact padValue_eq _

/-- w (or mask) padded along its probe axis, at (n, g): column g continued by zeros, at n. -/
theorem padProbesOfW_apply (w : FVec Ideal S33181x2048 .f32) (n : Fin 33280) (g : Fin 2048) :
    pad S33280x2048 ![0, 0] ![99, 0] ![0, 0] w (sitofp (F := Ideal) .f32 (constantI S_ 32 0#32)) pads_S33181x2048_S33280x2048_0990_000 h_S_ (ix2 n g)
      = wext w g n.val := by
  unfold MaskedProduct.wext
  split
  · rename_i h
    exact pad_apply_of_inside _ _ _ w _ pads_S33181x2048_S33280x2048_0990_000 h_S_ (ix2 n g) (ix2 ⟨n.val, h⟩ g) (fun a => by
      match a with
      | ⟨0, _⟩ => show n.val = 0 + n.val * (0 + 1); omega
      | ⟨1, _⟩ => show g.val = 0 + g.val * (0 + 1); omega)
  · rename_i h
    rw [pad_apply_of_not_inside _ _ _ w _ pads_S33181x2048_S33280x2048_0990_000 h_S_ (ix2 n g) (0 : Fin 2) (by
      show ¬(0 ≤ n.val ∧ (n.val - 0) % (0 + 1) = 0 ∧ (n.val - 0) / (0 + 1) < 33181); omega)]
    exact padValue_eq _

/-- The bias as one row, at (0, g): bias g. -/
theorem biasRow_apply (bias : FVec Ideal S2048 .f32) (g : Fin 2048) :
    shapeCast S1x2048 bias shapeCasts_S2048_S1x2048 (ix2 (0 : Fin 1) g) = bias (ix1 g) :=
  shapeCast_apply bias shapeCasts_S2048_S1x2048 (ix2 (0 : Fin 1) g) (ix1 g) (by
    rw [Shape.rowMajor_val_one, Shape.rowMajor_val_two]
    show g.val = 0 * 2048 + g.val
    omega)

/-! ### What the region finds in the windows' arrays -/

variable (m : (ℓ : Loc nD τ sig) → Buf (Elt Ideal) ℓ)

theorem xArray_eq (c : Dev nD) : (V m c main_call0_v1 : S2048x33280.Idx → EReal)
    = pad S2048x33280 ![0, 0] ![0, 99] ![0, 0] (m ((c : Thread nD τ).loc main_arg0)) (sitofp (F := Ideal) .f32 (constantI S_ 32 0#32)) pads_S2048x33181_S2048x33280_000_0990 h_S_ := by
  dsimp only [V, hostOps0]; after_results; rfl

theorem wArray_eq (c : Dev nD) : (V m c main_call0_v2 : S33280x2048.Idx → EReal)
    = pad S33280x2048 ![0, 0] ![99, 0] ![0, 0] (m ((c : Thread nD τ).loc main_arg1)) (sitofp (F := Ideal) .f32 (constantI S_ 32 0#32)) pads_S33181x2048_S33280x2048_0990_000 h_S_ := by
  dsimp only [V, hostOps0]; after_results; rfl

theorem maskArray_eq (c : Dev nD) : (V m c main_call0_v3 : S33280x2048.Idx → EReal)
    = pad S33280x2048 ![0, 0] ![99, 0] ![0, 0] (m ((c : Thread nD τ).loc main_arg3)) (sitofp (F := Ideal) .f32 (constantI S_ 32 0#32)) pads_S33181x2048_S33280x2048_0990_000 h_S_ := by
  dsimp only [V, hostOps0]; after_results; rfl

theorem biasArray_eq (c : Dev nD) : (V m c main_call0_v0 : S1x2048.Idx → EReal)
    = shapeCast S1x2048 (m ((c : Thread nD τ).loc main_arg2)) shapeCasts_S2048_S1x2048 := by
  dsimp only [V, hostOps0]; after_results; rfl

/-! ### The windows' blocks -/

/-- The printed index maps, decided once over the 260 grid points: at point t the K-block is t mod 130 and the
    column tile is t / 130; the x window follows the K-block, the w and mask windows both, the bias and output
    windows the column tile. -/
theorem idx_facts : ∀ t : Fin cfg0.N,
    win0_0.index t (0 : Fin 2) = 0 ∧ win0_0.index t (1 : Fin 2) = t.val % 130
    ∧ win0_1.index t (0 : Fin 2) = t.val % 130 ∧ win0_1.index t (1 : Fin 2) = t.val / 130
    ∧ win0_2.index t (0 : Fin 2) = t.val % 130 ∧ win0_2.index t (1 : Fin 2) = t.val / 130
    ∧ win0_3.index t (0 : Fin 2) = 0 ∧ win0_3.index t (1 : Fin 2) = t.val / 130
    ∧ win0_4.index t (0 : Fin 2) = 0 ∧ win0_4.index t (1 : Fin 2) = t.val / 130 :=
  (by decide +kernel : ∀ t : Fin grid0.N, _)

/-- The gene at column q of the tile of point t. -/
def gene (t : ℕ) (q : Fin 1024) : Fin 2048 := ⟨1024 * (t / 130 % 2) + q.val, by have := q.isLt; omega⟩

/-- The x window's block at point t, entry (b, c): row b of x continued by zeros, at probe 256 * (t mod 130) + c. -/
theorem xBlock_apply (c : Dev nD) (t : Fin cfg0.N) (b : Fin 2048) (cc : Fin 256) :
    (iblk m c 0 t : Vec Ideal S2048x256 .f32) (ix2 b cc)
      = xext (m ((c : Thread nD τ).loc main_arg0)) b (256 * (t.val % 130) + cc.val) := by
  have ht : t.val < 260 := lt_of_lt_of_eq t.isLt (show cfg0.N = 260 from N_0)
  obtain ⟨e0, e1, -⟩ := idx_facts t
  have hn : 256 * (t.val % 130) + cc.val < 33280 := by have := cc.isLt; omega
  show V m c main_call0_v1 (((cfg0.win 0).blk t).view.emb (ix2 b cc)) = _
  have hi : ((cfg0.win 0).blk t).view.emb (ix2 b cc) = ix2 b ⟨256 * (t.val % 130) + cc.val, hn⟩ := by
    funext a; apply Fin.ext
    match a with
    | ⟨0, _⟩ => show win0_0.index t (0 : Fin 2) * 2048 + 1 * b.val = b.val; rw [e0]; omega
    | ⟨1, _⟩ => show win0_0.index t (1 : Fin 2) * 256 + 1 * cc.val = 256 * (t.val % 130) + cc.val; rw [e1]; omega
  rw [hi, xArray_eq, padProbesOfX_apply]

/-- The w window's block at point t, entry (c, q): column gene t q of w continued by zeros, at the same probe. -/
theorem wBlock_apply (c : Dev nD) (t : Fin cfg0.N) (cc : Fin 256) (q : Fin 1024) :
    (iblk m c 1 t : Vec Ideal S256x1024 .f32) (ix2 cc q)
      = wext (m ((c : Thread nD τ).loc main_arg1)) (gene t.val q) (256 * (t.val % 130) + cc.val) := by
  have ht : t.val < 260 := lt_of_lt_of_eq t.isLt (show cfg0.N = 260 from N_0)
  obtain ⟨-, -, e0, e1, -⟩ := idx_facts t
  have hn : 256 * (t.val % 130) + cc.val < 33280 := by have := cc.isLt; omega
  show V m c main_call0_v2 (((cfg0.win 1).blk t).view.emb (ix2 cc q)) = _
  have hi : ((cfg0.win 1).blk t).view.emb (ix2 cc q) = ix2 ⟨256 * (t.val % 130) + cc.val, hn⟩ (gene t.val q) := by
    funext a; apply Fin.ext
    match a with
    | ⟨0, _⟩ => show win0_1.index t (0 : Fin 2) * 256 + 1 * cc.val = 256 * (t.val % 130) + cc.val; rw [e0]; omega
    | ⟨1, _⟩ => show win0_1.index t (1 : Fin 2) * 1024 + 1 * q.val = 1024 * (t.val / 130 % 2) + q.val; rw [e1]; omega
  rw [hi, wArray_eq, padProbesOfW_apply]

/-- The mask window's block likewise. -/
theorem maskBlock_apply (c : Dev nD) (t : Fin cfg0.N) (cc : Fin 256) (q : Fin 1024) :
    (iblk m c 2 t : Vec Ideal S256x1024 .f32) (ix2 cc q)
      = wext (m ((c : Thread nD τ).loc main_arg3)) (gene t.val q) (256 * (t.val % 130) + cc.val) := by
  have ht : t.val < 260 := lt_of_lt_of_eq t.isLt (show cfg0.N = 260 from N_0)
  obtain ⟨-, -, -, -, e0, e1, -⟩ := idx_facts t
  have hn : 256 * (t.val % 130) + cc.val < 33280 := by have := cc.isLt; omega
  show V m c main_call0_v3 (((cfg0.win 2).blk t).view.emb (ix2 cc q)) = _
  have hi : ((cfg0.win 2).blk t).view.emb (ix2 cc q) = ix2 ⟨256 * (t.val % 130) + cc.val, hn⟩ (gene t.val q) := by
    funext a; apply Fin.ext
    match a with
    | ⟨0, _⟩ => show win0_2.index t (0 : Fin 2) * 256 + 1 * cc.val = 256 * (t.val % 130) + cc.val; rw [e0]; omega
    | ⟨1, _⟩ => show win0_2.index t (1 : Fin 2) * 1024 + 1 * q.val = 1024 * (t.val / 130 % 2) + q.val; rw [e1]; omega
  rw [hi, maskArray_eq, padProbesOfW_apply]

/-- The bias window's block at point t, entry (0, q): the bias of gene t q. -/
theorem biasBlock_apply (c : Dev nD) (t : Fin cfg0.N) (q : Fin 1024) :
    (iblk m c 3 t : Vec Ideal S1x1024 .f32) (ix2 (0 : Fin 1) q)
      = m ((c : Thread nD τ).loc main_arg2) (ix1 (gene t.val q)) := by
  have ht : t.val < 260 := lt_of_lt_of_eq t.isLt (show cfg0.N = 260 from N_0)
  obtain ⟨-, -, -, -, -, -, e0, e1, -⟩ := idx_facts t
  show V m c main_call0_v0 (((cfg0.win 3).blk t).view.emb (ix2 (0 : Fin 1) q)) = _
  have hi : ((cfg0.win 3).blk t).view.emb (ix2 (0 : Fin 1) q) = ix2 (0 : Fin 1) (gene t.val q) := by
    funext a; apply Fin.ext
    match a with
    | ⟨0, _⟩ => show win0_3.index t (0 : Fin 2) * 1 + 1 * 0 = 0; rw [e0]
    | ⟨1, _⟩ => show win0_3.index t (1 : Fin 2) * 1024 + 1 * q.val = 1024 * (t.val / 130 % 2) + q.val; rw [e1]; omega
  rw [hi, biasArray_eq, biasRow_apply]

end Cert.KernelIdeal.PaddedBlocks

end
-- ==== Proof.TileFold.lean ====
/-
  The kernel's result array, as the specification's function of the arguments.

  The grid's 260 points run, for each of the two column tiles n, through the 130 K-blocks k in order
  (point t = 130 n + k). Over a tile's run the scratch is reset at k = 0 and every point adds its
  K-block's share of the product, so after the last point it holds 0 + the sum over k of the shares;
  the last point stores that plus the bias row into the output tile, which is then written back to
  columns 1024 n .. 1024 n + 1023 of the result. The shares of the 130 K-blocks are the terms of the
  zero-padded probe range 0 .. 33279 taken 256 at a time, so by the specification's law the tile's
  entry (b, q) is the masked product plus bias at (b, gene q of tile n). The two tiles' write-backs
  cover the result array.
-/
import proofs.«113043_j24086176596651_2_alg».proof.Proof.Gen.KernelIdeal.Value
import proofs.«113043_j24086176596651_2_alg».proof.Proof.MaskedProductSpec
import proofs.«113043_j24086176596651_2_alg».proof.Proof.BodyValues
import proofs.«113043_j24086176596651_2_alg».proof.Proof.CasePieces
import proofs.«113043_j24086176596651_2_alg».proof.Proof.PaddedBlocks
import Idealize.ShloMosaic.Lib.Pipeline.Value

set_option maxRecDepth 16384

noncomputable section

open scoped BigOperators

namespace Cert.KernelIdeal.TileFold

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.PaddedBlocks (gene idx_facts xBlock_apply wBlock_apply maskBlock_apply biasBlock_apply)
open MaskedProduct (term)

variable (m : (ℓ : Loc nD τ sig) → Buf (Elt Ideal) ℓ) (ρ : Dev nD → PrngReg)

/-- The four argument arrays as launched. -/
abbrev argX (c : Dev nD) : FVec Ideal S2048x33181 .f32 := m ((c : Thread nD τ).loc main_arg0)
abbrev argW (c : Dev nD) : FVec Ideal S33181x2048 .f32 := m ((c : Thread nD τ).loc main_arg1)
abbrev argBias (c : Dev nD) : FVec Ideal S2048 .f32 := m ((c : Thread nD τ).loc main_arg2)
abbrev argMask (c : Dev nD) : FVec Ideal S33181x2048 .f32 := m ((c : Thread nD τ).loc main_arg3)

/-- The kernel's result: the masked product plus the bias, of the arguments as launched. -/
abbrev result (c : Dev nD) : S2048x2048.Idx → EReal :=
  MaskedProduct.out (argX m c) (argW m c) (argMask m c) (argBias m c)

/-- Point n's share of entry (b, q) of its tile: its K-block's 256 terms. -/
def share (c : Dev nD) (n : ℕ) (b : Fin 2048) (q : Fin 1024) : EReal :=
  ∑ cc : Fin 256, term (argX m c) (argW m c) (argMask m c) b (gene n q) (256 * (n % 130) + cc.val)

/-- The accumulation step at point n, at entry (b, q): what the scratch held plus the point's share. -/
theorem step_apply (c : Dev nD) (n : ℕ) (hb : n < cfg0.N) (acc : Vec Ideal S2048x1024 .f32) (b : Fin 2048) (q : Fin 1024) :
    k0_pay2 (F := Ideal) (iblk m c 0 ⟨n, hb⟩) (iblk m c 1 ⟨n, hb⟩) (iblk m c 2 ⟨n, hb⟩) acc (ix2 b q)
      = acc (ix2 b q) + share m c n b q := by
  refine (BodyValues.accumulate_apply (iblk m c 0 ⟨n, hb⟩) (iblk m c 1 ⟨n, hb⟩) (iblk m c 2 ⟨n, hb⟩) acc b q).trans ?_
  refine congrArg (acc (ix2 b q) + ·) (Finset.sum_congr rfl fun cc _ => ?_)
  rw [xBlock_apply m c ⟨n, hb⟩ b cc, wBlock_apply m c ⟨n, hb⟩ cc q, maskBlock_apply m c ⟨n, hb⟩ cc q]
  rfl

/-- At a tile's first point the scratch ends at zero plus the point's share, whatever it held. -/
theorem scratch_reset (c : Dev nD) (n : ℕ) (hb : n < cfg0.N) (h0 : n % 130 = 0) (acc : Vec Ideal S2048x1024 .f32)
    (i : S2048x1024.Idx) : Value.scAt0_0 m c n hb acc i = 0 + share m c n (i 0) (i 1) := by
  have h1 : ¬n % 130 = 129 := by omega
  obtain ⟨b, q, rfl⟩ : ∃ (b : Fin 2048) (q : Fin 1024), i = ix2 b q := ⟨i 0, i 1, eq_ix2 i⟩
  unfold Value.scAt0_0
  rw [dif_pos h0, dif_neg h1, CasePieces.scratch_first]
  refine (step_apply m c n hb (k0_pay1 (F := Ideal)) b q).trans ?_
  rw [BodyValues.reset_apply]

/-- At every other point it ends at what it held plus the point's share. -/
theorem scratch_add (c : Dev nD) (n : ℕ) (hb : n < cfg0.N) (h0 : ¬n % 130 = 0) (acc : Vec Ideal S2048x1024 .f32)
    (i : S2048x1024.Idx) : Value.scAt0_0 m c n hb acc i = acc i + share m c n (i 0) (i 1) := by
  obtain ⟨b, q, rfl⟩ : ∃ (b : Fin 2048) (q : Fin 1024), i = ix2 b q := ⟨i 0, i 1, eq_ix2 i⟩
  unfold Value.scAt0_0
  rw [dif_neg h0]
  by_cases h1 : n % 130 = 129
  · rw [dif_pos h1, CasePieces.scratch_last]
    exact step_apply m c n hb acc b q
  · rw [dif_neg h1, CasePieces.scratch_middle]
    exact step_apply m c n hb acc b q

/-- After a tile's last point the scratch holds zero plus the shares of the tile's 130 points. -/
theorem scratch_atLast (c : Dev nD) (t : Fin cfg0.N) (h129 : t.val % 130 = 129) (i : S2048x1024.Idx) :
    (outsAt0 m c t.val t.isLt).2 i
      = 0 + ∑ s ∈ Finset.range 130, share m c (130 * (t.val / 130) + s) (i 0) (i 1) := by
  rw [Value.soutsAt0_0_eq m c t,
    Pipeline.accAt_add_apply (fun n h => Value.scAt0_0 m c n h (VS0_0.read (Elt Ideal) VS0_0.junk)) (Value.scAt0_0 m c)
      (fun _ => 0) (fun n i => share m c n (i 0) (i 1)) (130 * (t.val / 130)) 129
      (fun h i => scratch_reset m c _ h (Nat.mul_mod_right 130 _) _ i)
      (fun n h acc i hlt hle => scratch_add m c n h (by omega) acc i)
      (t.val % 130) (by omega) _ i,
    h129]

/-- What a tile's last point leaves in the output tile, at entry (b, q): the result at (b, gene q of the tile). -/
theorem tile_atLast (c : Dev nD) (t : Fin cfg0.N) (h129 : t.val % 130 = 129) (b : Fin 2048) (q : Fin 1024) :
    (outsAt0 m c t.val t.isLt).1 (ix2 b q) = result m c (ix2 b (gene t.val q)) := by
  have hN : t.val < 260 := lt_of_lt_of_eq t.isLt (show cfg0.N = 260 from N_0)
  have h0 : ¬t.val % 130 = 0 := by omega
  have e1 : (outsAt0 m c t.val t.isLt).1 = k0_pay3 (F := Ideal) ((outsAt0 m c t.val t.isLt).2) (iblk m c 3 t) := by
    rw [outsAt0_C m c t h0 h129]
    dsimp only
    rw [CasePieces.out_last, CasePieces.scratch_last]
  rw [e1]
  refine (BodyValues.addBias_apply ((outsAt0 m c t.val t.isLt).2) (iblk m c 3 t) b q).trans ?_
  rw [scratch_atLast m c t h129 (ix2 b q), biasBlock_apply m c t q]
  refine Eq.trans ?_ (MaskedProduct.blocked_eq_out (argX m c) (argW m c) (argMask m c) (argBias m c) b (gene t.val q))
  refine congrArg (fun z => (0 + z) + argBias m c (ix1 (gene t.val q))) (Finset.sum_congr rfl fun s hs => ?_)
  have hs' : s < 130 := Finset.mem_range.mp hs
  have eg : gene (130 * (t.val / 130) + s) q = gene t.val q := Fin.ext (by
    show 1024 * ((130 * (t.val / 130) + s) / 130 % 2) + q.val = 1024 * (t.val / 130 % 2) + q.val
    omega)
  have ek : (130 * (t.val / 130) + s) % 130 = s := by omega
  show share m c (130 * (t.val / 130) + s) b q = _
  unfold share
  rw [eg, ek]

/-! ### From the tiles to the array -/

/-- THE WRITE-BACKS: at a tile's last point the pipeline writes back that tile of the result. -/
theorem flushed_eq (c : Dev nD) (t : Fin cfg0.N) (hf : (cfg0.win 4).flush t = true) :
    (dats m 0 c).flushed 4 t = ((cfg0.win 4).blk t).view.read (Elt Ideal) (result m c) := by
  have h129 : t.val % 130 = 129 := (flush0_4 t).mp hf
  rw [Value.flushed4]
  funext j
  obtain ⟨b, q, rfl⟩ : ∃ (b : Fin 2048) (q : Fin 1024), j = ix2 b q := ⟨j 0, j 1, eq_ix2 j⟩
  show (outsAt0 m c t.val t.isLt).1 (ix2 b q) = result m c (((cfg0.win 4).blk t).view.emb (ix2 b q))
  have hi : ((cfg0.win 4).blk t).view.emb (ix2 b q) = ix2 b (gene t.val q) := by
    have hN : t.val < 260 := lt_of_lt_of_eq t.isLt (show cfg0.N = 260 from N_0)
    obtain ⟨-, -, -, -, -, -, -, -, e0, e1⟩ := idx_facts t
    funext a; apply Fin.ext
    match a with
    | ⟨0, _⟩ => show win0_4.index t (0 : Fin 2) * 2048 + 1 * b.val = b.val; rw [e0]; omega
    | ⟨1, _⟩ => show win0_4.index t (1 : Fin 2) * 1024 + 1 * q.val = 1024 * (t.val / 130 % 2) + q.val; rw [e1]; omega
  rw [hi]
  exact tile_atLast m c t h129 b q

/-- An index of the result is in point t's block iff each coordinate is in the block's range on its axis. -/
theorem mem_blk (t : Fin cfg0.N) (i : S2048x2048.Idx) :
    i ∈ ((cfg0.win 4).blk t).view.set ↔ ∀ a : Fin 2, win0_4.index t a * S2048x1024.size a ≤ (i a).val ∧ (i a).val < win0_4.index t a * S2048x1024.size a + S2048x1024.size a := by
  show i ∈ ((View.whole main_v0).slice (win0_4.rect t)).set ↔ _
  rw [View.set_slice_whole, Rect.mem_set_unit]
  exact Iff.rfl

/-- THE COVER: column g of the result lies in tile g / 1024, written back at that tile's last point. -/
theorem cover (i : S2048x2048.Idx) :
    ∃ t : Fin cfg0.N, (cfg0.win 4).flush t = true ∧ i ∈ ((cfg0.win 4).blk t).view.set := by
  have hi0 : (i 0).val < 2048 := (i 0).isLt
  have hi1 : (i 1).val < 2048 := (i 1).isLt
  have hN : cfg0.N = 260 := N_0
  have ht : 130 * ((i 1).val / 1024) + 129 < cfg0.N := by rw [hN]; omega
  refine ⟨⟨130 * ((i 1).val / 1024) + 129, ht⟩, (flush0_4 _).mpr (by show (130 * ((i 1).val / 1024) + 129) % 130 = 129; omega), ?_⟩
  rw [mem_blk]
  obtain ⟨-, -, -, -, -, -, -, -, e0, e1⟩ := idx_facts ⟨130 * ((i 1).val / 1024) + 129, ht⟩
  have e1' : win0_4.index ⟨130 * ((i 1).val / 1024) + 129, ht⟩ (1 : Fin 2) = (130 * ((i 1).val / 1024) + 129) / 130 := e1
  intro a
  match a with
  | ⟨0, _⟩ =>
    show win0_4.index ⟨130 * ((i 1).val / 1024) + 129, ht⟩ (0 : Fin 2) * 2048 ≤ (i 0).val ∧ (i 0).val < win0_4.index ⟨130 * ((i 1).val / 1024) + 129, ht⟩ (0 : Fin 2) * 2048 + 2048
    rw [e0]; omega
  | ⟨1, _⟩ =>
    show win0_4.index ⟨130 * ((i 1).val / 1024) + 129, ht⟩ (1 : Fin 2) * 1024 ≤ (i 1).val ∧ (i 1).val < win0_4.index ⟨130 * ((i 1).val / 1024) + 129, ht⟩ (1 : Fin 2) * 1024 + 1024
    rw [e1']; omega

/-- THE ARRAY after the run. -/
theorem final (c : Dev nD) : (dats m 0 c).arrAt 4 cfg0.N = result m c :=
  (dats m 0 c).arrAt_eq_of_cover 4 (result m c) (fun t hf => flushed_eq m c t hf) cover

/-- THE RUN: every weakly fair execution of the kernel program terminates with the result array at the masked
    product plus the bias of the arguments as launched, and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.TileFold

end
-- ==== Proof.lean ====
/-
  A gene-blocked linear layer: out = x @ (w * mask) + bias, with x [2048, 33181], w and mask
  [33181, 2048], bias [2048].

  The kernel zero-pads the 33181 probes to 33280 = 130 * 256, and for each of two tiles of 1024 genes
  walks the 130 K-blocks of 256 probes: it resets a scratch tile at the first K-block, adds at each
  K-block the product of the x block (narrowed to bf16) with the masked weight block w * mask (narrowed
  to bf16), and at the last K-block stores the scratch plus the bias row. The reference multiplies the
  whole arrays once and adds the broadcast bias.

  On the extended reals a change of float format is the identity and every operation is exact, so entry
  (b, g) of the kernel's result is

      (0 + sum over K-blocks k of sum over c < 256 of X (b, 256 k + c) * (W (256 k + c, g) * M (256 k + c, g))) + bias g

  with X, W, M the arguments continued by zeros past probe 33180, and the reference's is

      (sum over probes j < 33181 of x (b, j) * (w (j, g) * mask (j, g))) + bias g.

  The padded terms are 0 * (0 * 0) = 0, a finite sum may be taken block by block, and 0 + a = a: the two
  are equal, and the inputs' finiteness is never used. The idealization rewrote nothing, so the
  preservation claim is trivial; the three frames are the generated runs.
-/
import proofs.«113043_j24086176596651_2_alg».proof.Defs
import proofs.«113043_j24086176596651_2_alg».proof.Proof.Gen.Kernel
import proofs.«113043_j24086176596651_2_alg».proof.Proof.Gen.Kernel.Skeleton
import proofs.«113043_j24086176596651_2_alg».proof.Proof.Gen.Kernel.Launch
import proofs.«113043_j24086176596651_2_alg».proof.Proof.Gen.Kernel.Points
import proofs.«113043_j24086176596651_2_alg».proof.Proof.Gen.Kernel.Frame
import proofs.«113043_j24086176596651_2_alg».proof.Proof.Gen.KernelIdeal
import proofs.«113043_j24086176596651_2_alg».proof.Proof.Gen.KernelIdeal.Skeleton
import proofs.«113043_j24086176596651_2_alg».proof.Proof.Gen.KernelIdeal.Launch
import proofs.«113043_j24086176596651_2_alg».proof.Proof.Gen.KernelIdeal.Points
import proofs.«113043_j24086176596651_2_alg».proof.Proof.Gen.KernelIdeal.Frame
import proofs.«113043_j24086176596651_2_alg».proof.Proof.Gen.ReferenceIdeal
import proofs.«113043_j24086176596651_2_alg».proof.Proof.Gen.KernelIdeal.Value
import proofs.«113043_j24086176596651_2_alg».proof.Proof.Gen.ReferenceIdeal.Run
import proofs.«113043_j24086176596651_2_alg».proof.Proof.Gen.ReferenceIdeal.Read
import proofs.«113043_j24086176596651_2_alg».proof.Proof.Gen.Pre_finite_inputs
import proofs.«113043_j24086176596651_2_alg».proof.Proof.ReferenceValue
import proofs.«113043_j24086176596651_2_alg».proof.Proof.TileFold
import Idealize.ShloMosaic.Adequacy
import Idealize.ShloMosaic.Init

noncomputable section

namespace Cert.Proof

open Idealize.ShloMosaic Idealize.SL.Sem Cert.Kernel

/-- The word-level kernel runs and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, both programs end with the masked product plus the bias of those arguments:
    the kernel tile by tile over the padded K-blocks, the reference in one product. -/
theorem algebraic : Cert.algebraic_KernelIdeal_ReferenceIdeal := by
  intro m ρ m' ρ' _ hagree
  refine ⟨fun c => Cert.KernelIdeal.TileFold.result m c, Cert.KernelIdeal.TileFold.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact Cert.ReferenceIdeal.RefValue.stage_eq_out _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
